-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : FVec F S8192x64 .f32) (main_arg2 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S2048x64 : Shape := ⟨2, ![2048, 64]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 27
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S8192x64, .bf16⟩
  | .hbm, ⟨25, _⟩ => ⟨S8192x64, .bf16⟩
  | .hbm, ⟨26, _⟩ => ⟨S8192x8192, .f32⟩
  | .local _ .vmem, ⟨0, _⟩ => ⟨S1024x64, .bf16⟩
  | .local _ .vmem, ⟨1, _⟩ => ⟨S1024x64, .bf16⟩
  | .local _ .vmem, ⟨2, _⟩ => ⟨S2048x64, .bf16⟩
  | .local _ .vmem, ⟨3, _⟩ => ⟨S2048x64, .bf16⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  shapeCasts_S8192_S1x8192 : S8192.ShapeCasts S1x8192
  bcast_S_S8192x1 : S_.BroadcastsInDim S8192x1 (![] : Fin 0 → Fin S8192x1.rank)
  bcast_S_S1x8192 : S_.BroadcastsInDim S1x8192 (![] : Fin 0 → Fin S1x8192.rank)
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .bf16 = 32 ∨ (Rect.block (s := S8192x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_v17) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Spec.lean ====
/-
  The two arrangements of the ARD radial-basis kernel matrix, and the law that joins them.

  With row statistics a(p), b(q) (the weighted squared norms of row p of x and of row q of y) and the weighted
  cross products c(p,q) = sum over k of w(p,k) * y(q,k), the entry at (p,q) is written in two ways:
    halved  : exp (min ((h * a p + h * b q) + c p q) 0)          -- the -1/2 folded into the row statistics
    floored : exp (h * max ((a p + b q) - t * c p q) 0)          -- the squared distance floored at 0, then halved
  where h is the float word of -1/2, t the word of 2 and 0 the zero word. On the reals these agree: multiplying by
  the negative -1/2 turns the maximum with 0 into the minimum with 0, and -1/2 * (a + b - 2 c) = -a/2 - b/2 + c.
  The second step distributes a product over a sum, which the extended reals do not allow at the infinities, so
  the law is stated for a p, b q and c p q REAL.
-/
import Idealize.ShloMosaic.PureOps.Ideal
import Idealize.ShloMosaic.PureOps.Ideal.Laws
import Idealize.ShloMosaic.Lib.ValueIdx

noncomputable section

namespace Cert.ArdRbf

open Idealize.ShloMosaic Idealize.ShloMosaic.ValueIdx

/-! ## Extended reals that are real -/

/-- An extended real that is a real number. -/
def IsReal (e : EReal) : Prop := ∃ r : ℝ, e = (r : EReal)

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The exponential of a real is real. -/
theorem IsReal.exp {x : EReal} (hx : IsReal x) : IsReal (Ideal.exp x) := by
  obtain ⟨a, rfl⟩ := hx; exact ⟨Real.exp a, Ideal.exp_coe a⟩

/-- A finite sum of reals is real. -/
theorem isReal_sum {ι : Type} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-! ## The three float words -/

/-- The word of -0.5 denotes the real -1/2. -/
theorem negHalf_word : Ideal.ofBits .f32 0xBF000000#32 = ((-(1 / 2) : ℝ) : EReal) := by
  simp [Ideal.ofBits, Ideal.ieee, -EReal.coe_mul]; norm_num

/-- The word of 2.0 denotes the real 2. -/
theorem two_word : Ideal.ofBits .f32 0x40000000#32 = ((2 : ℝ) : EReal) := by
  simp [Ideal.ofBits, Ideal.ieee, -EReal.coe_mul]; norm_num

/-- The zero word denotes the real 0. -/
theorem zero_word : Ideal.ofBits .f32 0x00000000#32 = ((0 : ℝ) : EReal) := by
  rw [Ideal.ofBits_zero_f32, EReal.coe_zero]

/-! ## The two arrangements -/

/-- The weighted cross product of row p of w with row q of y. -/
def cross (W Y : (⟨2, ![8192, 64]⟩ : Shape).Idx → EReal) (p q : Fin 8192) : EReal :=
  ∑ k : Fin 64, W (ix2 p k) * Y (ix2 q k)

/-- The entry at (p,q) with the -1/2 folded into the row statistics and the clamp a minimum with 0. -/
def halved (A B : (⟨1, ![8192]⟩ : Shape).Idx → EReal) (W Y : (⟨2, ![8192, 64]⟩ : Shape).Idx → EReal) (p q : Fin 8192) : EReal :=
  Ideal.exp (min ((Ideal.ofBits .f32 0xBF000000#32 * A (ix1 p) + Ideal.ofBits .f32 0xBF000000#32 * B (ix1 q)) + cross W Y p q)
    (Ideal.ofBits .f32 0x00000000#32))

/-- The entry at (p,q) as the squared distance floored at 0, then halved and negated. -/
def floored (A B : (⟨1, ![8192]⟩ : Shape).Idx → EReal) (W Y : (⟨2, ![8192, 64]⟩ : Shape).Idx → EReal) (p q : Fin 8192) : EReal :=
  Ideal.exp (Ideal.ofBits .f32 0xBF000000#32 * max ((A (ix1 p) + B (ix1 q)) - Ideal.ofBits .f32 0x40000000#32 * cross W Y p q)
    (Ideal.ofBits .f32 0x00000000#32))

/-- The whole matrix in the halved arrangement. -/
def halvedArr (A B : (⟨1, ![8192]⟩ : Shape).Idx → EReal) (W Y : (⟨2, ![8192, 64]⟩ : Shape).Idx → EReal) :
    (⟨2, ![8192, 8192]⟩ : Shape).Idx → EReal := fun i => halved A B W Y (i 0) (i 1)

/-- The whole matrix in the floored arrangement. -/
def flooredArr (A B : (⟨1, ![8192]⟩ : Shape).Idx → EReal) (W Y : (⟨2, ![8192, 64]⟩ : Shape).Idx → EReal) :
    (⟨2, ![8192, 8192]⟩ : Shape).Idx → EReal := fun i => floored A B W Y (i 0) (i 1)

theorem halvedArr_ix2 (A B : (⟨1, ![8192]⟩ : Shape).Idx → EReal) (W Y : (⟨2, ![8192, 64]⟩ : Shape).Idx → EReal) (p q : Fin 8192) :
    halvedArr A B W Y (ix2 p q) = halved A B W Y p q := rfl

theorem flooredArr_ix2 (A B : (⟨1, ![8192]⟩ : Shape).Idx → EReal) (W Y : (⟨2, ![8192, 64]⟩ : Shape).Idx → EReal) (p q : Fin 8192) :
    flooredArr A B W Y (ix2 p q) = floored A B W Y p q := rfl

/-! ## The law -/

/-- On the reals: min (-a/2 - b/2 + c) 0 = -1/2 * max (a + b - 2 c) 0. -/
theorem real_law (a b c : ℝ) :
    min ((-(1 / 2) * a + -(1 / 2) * b) + c) 0 = -(1 / 2) * max ((a + b) - 2 * c) 0 := by
  by_cases h : (a + b) - 2 * c ≤ 0
  · rw [max_eq_right h, mul_zero, min_eq_right (by linarith)]
  · have h' : 0 ≤ (a + b) - 2 * c := le_of_lt (not_le.mp h)
    rw [max_eq_left h', min_eq_left (by linarith)]
    ring

/-- The two arrangements agree at (p,q) when the two row statistics and the cross product there are real. -/
theorem halved_eq_floored (A B : (⟨1, ![8192]⟩ : Shape).Idx → EReal) (W Y : (⟨2, ![8192, 64]⟩ : Shape).Idx → EReal) (p q : Fin 8192)
    (hA : IsReal (A (ix1 p))) (hB : IsReal (B (ix1 q))) (hC : IsReal (cross W Y p q)) :
    halved A B W Y p q = floored A B W Y p q := by
  unfold halved floored
  obtain ⟨a, ha⟩ := hA; obtain ⟨b, hb⟩ := hB; obtain ⟨c, hc⟩ := hC
  rw [ha, hb, hc, negHalf_word, two_word, zero_word]
  refine congrArg Ideal.exp ?_
  rw [← EReal.coe_mul, ← EReal.coe_mul, ← EReal.coe_add, ← EReal.coe_add, ← EReal.coe_mul, ← EReal.coe_add, ← EReal.coe_sub,
    ← EReal.coe_strictMono.monotone.map_min, ← EReal.coe_strictMono.monotone.map_max, ← EReal.coe_mul, real_law]

/-- So the two matrices are one when every row statistic and every cross product is real. -/
theorem halvedArr_eq_flooredArr (A B : (⟨1, ![8192]⟩ : Shape).Idx → EReal) (W Y : (⟨2, ![8192, 64]⟩ : Shape).Idx → EReal)
    (hA : ∀ p : Fin 8192, IsReal (A (ix1 p))) (hB : ∀ q : Fin 8192, IsReal (B (ix1 q)))
    (hC : ∀ p q : Fin 8192, IsReal (cross W Y p q)) :
    halvedArr A B W Y = flooredArr A B W Y :=
  funext fun i => halved_eq_floored A B W Y (i 0) (i 1) (hA _) (hB _) (hC _ _)

end Cert.ArdRbf

end
-- ==== Proof.RefSide.lean ====
/-
  The reference computes the floored arrangement.

  Reading its result one operation at a time: the entry at (p,q) is the exponential of -1/2 times the maximum with 0
  of (a p + b q) - 2 * c p q, where a is the reduced row statistic of x (the sum over the feature axis of
  (x * e^l) * x), b the same of y, and c p q the contraction of row p of the scaled x with row q of y. The row
  statistics and the scaled x are left as the functions the reference's own stages name: nothing here depends on
  what they are.
-/
import proofs.«151954_j58256936402966_2_alg».proof.Proof.Gen.ReferenceIdeal.Read
import proofs.«151954_j58256936402966_2_alg».proof.Proof.Spec

noncomputable section

namespace Cert.ArdRbf

open Idealize.ShloMosaic Idealize.ShloMosaic.ValueIdx
open Cert.ReferenceIdeal Cert.ReferenceIdeal.Read

/-- The broadcast column of row statistics, read at (p,q), is the statistic of row p. -/
theorem rowStat_index (p q : Fin 8192) : idx_main_v12 (idx_main_v14 (ix2 p q)) = ix1 p :=
  funext fun a => Fin.ext (by match a with | ⟨0, _⟩ => rfl)

/-- The broadcast row of column statistics, read at (p,q), is the statistic of row q of y. -/
theorem colStat_index (p q : Fin 8192) : idx_main_v13 (idx_main_v15 (ix2 p q)) = ix1 q :=
  funext fun a => Fin.ext (by match a with | ⟨0, _⟩ => rfl)

/-- The contraction at (p,q) reads row p of its left operand -/
theorem lhs_index (p q : Fin 8192) (k : Fin 64) : lidx_main_v11 (ix2 p q) k = ix2 p k :=
  funext fun a => Fin.ext (by match a with | ⟨0, _⟩ => rfl | ⟨1, _⟩ => rfl)

/-- and row q of its right operand. -/
theorem rhs_index (p q : Fin 8192) (k : Fin 64) : ridx_main_v11 (ix2 p q) k = ix2 q k :=
  funext fun a => Fin.ext (by match a with | ⟨0, _⟩ => rfl | ⟨1, _⟩ => rfl)

/-- The reference's result is the floored arrangement over its own row statistics and scaled rows. -/
theorem reference_is_floored (x0 x1 : (⟨S8192x64, .f32⟩ : BufTy).Contents (Elt Ideal)) (x2 : (⟨S64, .f32⟩ : BufTy).Contents (Elt Ideal)) :
    val_main_v24 (F := Ideal) x0 x1 x2
      = flooredArr (val_main_v5 (F := Ideal) x0 x2) (val_main_v10 (F := Ideal) x1 x2) (val_main_v3 (F := Ideal) x0 x2) x1 := by
  funext i
  obtain ⟨p, q, rfl⟩ : ∃ (p q : Fin 8192), i = ix2 p q := ⟨i 0, i 1, eq_ix2 i⟩
  rw [flooredArr_ix2, val_main_v24_apply, val_main_v23_apply, val_main_v22_apply, val_main_cst_3_apply, val_main_v21_apply,
    val_main_v20_apply, val_main_cst_2_apply, val_main_v19_apply, val_main_v16_apply, val_main_v14_apply, val_main_v12_apply,
    val_main_v15_apply, val_main_v13_apply, val_main_v18_apply, val_main_v17_apply, val_main_cst_1_apply, val_main_v11_apply]
  simp only [rowStat_index, colStat_index, lhs_index, rhs_index, Ideal.hostUnary_exp_def, Ideal.mulf_def, Ideal.maximumf_def,
    Ideal.subf_def, Ideal.addf_def, Ideal.ofBits_def]
  rfl

end Cert.ArdRbf

end
-- ==== Proof.Finite.lean ====
/-
  What finite inputs give: every row statistic and every cross product is a real number.

  The precondition says, of each of the three input arrays, that every entry's absolute value is below +infinity:
  on the extended reals that leaves exactly the real numbers. The exponential of a real is real, products and finite
  sums of reals are real; so the scaled rows x * e^l, the row statistics (a sum over the 64 features from the zero
  word) and the cross products are real.
-/
import proofs.«151954_j58256936402966_2_alg».proof.Pre_finite_inputs
import proofs.«151954_j58256936402966_2_alg».proof.Proof.Gen.ReferenceIdeal.Read
import proofs.«151954_j58256936402966_2_alg».proof.Proof.Spec
import Idealize.ShloMosaic.Lib.ReduceAll

noncomputable section

namespace Cert.ArdRbf

open Idealize.ShloMosaic Idealize.ShloMosaic.ValueIdx

/-! ## An entry whose absolute value is below +infinity is real -/

/-- The word of +infinity denotes the top of the extended reals. -/
theorem inf_word : Ideal.ofBits .f32 0x7F800000#32 = (⊤ : EReal) := by
  simp [Ideal.ofBits, Ideal.ieee]

/-- |a| < +infinity leaves only the reals: at either infinity the absolute value is +infinity itself. -/
theorem isReal_of_abs_lt_inf (a : EReal)
    (h : FloatOps.cmpf (F := Ideal) (φ := .f32) .olt (FloatOps.hostAbsf (F := Ideal) (φ := .f32) a)
      (FloatOps.ofBits (F := Ideal) .f32 0x7F800000#32) = 1#1) : IsReal a := by
  rw [Ideal.cmpf_def, Ideal.hostAbsf_def, Ideal.absf_def, Ideal.ofBits_def, inf_word] at h
  induction a using EReal.rec with
  | bot => exact absurd h (by simp [Ideal.cmp])
  | top => exact absurd h (by simp [Ideal.cmp])
  | coe r => exact ⟨r, rfl⟩

instance : Subsingleton Cert.Pre_finite_inputs.S_.Idx := ⟨fun a b => funext fun d => d.elim0⟩

/-- The precondition, decoded: every entry of the three inputs is real. -/
theorem entries_real [Cert.Pre_finite_inputs.Facts]
    (x0 x1 : FVec Ideal Cert.Pre_finite_inputs.S8192x64 .f32) (x2 : FVec Ideal Cert.Pre_finite_inputs.S64 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ix0
  dsimp only [Cert.Pre_finite_inputs.fn] at h0
  obtain ⟨h01, hz⟩ := IntOp.andi_eq_one.1 h0
  obtain ⟨hx, hy⟩ := IntOp.andi_eq_one.1 h01
  exact ⟨fun i => isReal_of_abs_lt_inf _ (Host.reduce_andi_all _ _ _ _ ix0 hx i),
    fun i => isReal_of_abs_lt_inf _ (Host.reduce_andi_all _ _ _ _ ix0 hy i),
    fun i => isReal_of_abs_lt_inf _ (Host.reduce_andi_all _ _ _ _ ix0 hz i)⟩

/-! ## The reference's stages on real inputs -/

open Cert.ReferenceIdeal Cert.ReferenceIdeal.Read

/-- The scaled rows x * e^l are real. -/
theorem scaled_real (x0 : (⟨S8192x64, .f32⟩ : BufTy).Contents (Elt Ideal)) (x2 : (⟨S64, .f32⟩ : BufTy).Contents (Elt Ideal))
    (h0 : ∀ i, IsReal (x0 i)) (h2 : ∀ i, IsReal (x2 i)) (i : S8192x64.Idx) : IsReal (val_main_v3 (F := Ideal) x0 x2 i) := by
  rw [val_main_v3_apply, val_main_v2_apply, val_main_v1_apply, val_main_v0_apply]
  simp only [Ideal.mulf_def, Ideal.hostUnary_exp_def]
  exact (h0 i).mul (h2 _).exp

/-- The statistic of a row of x is real. -/
theorem rowStat_real (x0 : (⟨S8192x64, .f32⟩ : BufTy).Contents (Elt Ideal)) (x2 : (⟨S64, .f32⟩ : BufTy).Contents (Elt Ideal))
    (h0 : ∀ i, IsReal (x0 i)) (h2 : ∀ i, IsReal (x2 i)) (p : Fin 8192) : IsReal (val_main_v5 (F := Ideal) x0 x2 (ix1 p)) := by
  rw [val_main_v5_apply, val_main_cst_apply]
  refine IsReal.add ?_ (isReal_sum _ _ fun k _ => ?_)
  · rw [Ideal.ofBits_def, Ideal.ofBits_zero_f32]; exact isReal_zero
  · rw [val_main_v4_apply]
    simp only [Ideal.mulf_def]
    exact (scaled_real x0 x2 h0 h2 _).mul (h0 _)

/-- The statistic of a row of y is real. -/
theorem colStat_real (x1 : (⟨S8192x64, .f32⟩ : BufTy).Contents (Elt Ideal)) (x2 : (⟨S64, .f32⟩ : BufTy).Contents (Elt Ideal))
    (h1 : ∀ i, IsReal (x1 i)) (h2 : ∀ i, IsReal (x2 i)) (q : Fin 8192) : IsReal (val_main_v10 (F := Ideal) x1 x2 (ix1 q)) := by
  rw [val_main_v10_apply, val_main_cst_0_apply]
  refine IsReal.add ?_ (isReal_sum _ _ fun k _ => ?_)
  · rw [Ideal.ofBits_def, Ideal.ofBits_zero_f32]; exact isReal_zero
  · rw [val_main_v9_apply, val_main_v8_apply, val_main_v7_apply, val_main_v6_apply, val_main_v0_apply]
    simp only [Ideal.mulf_def, Ideal.hostUnary_exp_def]
    exact ((h1 _).mul (h2 _).exp).mul (h1 _)

/-- Every cross product of a scaled row of x with a row of y is real. -/
theorem cross_real (x0 x1 : (⟨S8192x64, .f32⟩ : BufTy).Contents (Elt Ideal)) (x2 : (⟨S64, .f32⟩ : BufTy).Contents (Elt Ideal))
    (h0 : ∀ i, IsReal (x0 i)) (h1 : ∀ i, IsReal (x1 i)) (h2 : ∀ i, IsReal (x2 i)) (p q : Fin 8192) :
    IsReal (cross (val_main_v3 (F := Ideal) x0 x2) x1 p q) := by
  unfold cross
  exact isReal_sum _ _ fun k _ => (scaled_real x0 x2 h0 h2 _).mul (h1 _)

end Cert.ArdRbf

end
-- ==== Proof.HostPrelude.lean ====
/-
  What the region finds in its four input arrays.

  Before the region the program computes, on the host, exactly the prelude the reference computes: e^l broadcast
  over the rows, the scaled rows x * e^l, and the two row statistics (sums over the 64 features). The region's
  windows then stage: the scaled rows (rounded to a shorter format, which changes nothing on the extended reals),
  y itself, the column of x's row statistics times the word of -1/2, and the row of y's statistics times the same
  word. They are stated here over the reference's own stage functions, since the operations are the same ones; read
  at an entry, the halved column at (p,0) is the word times the statistic of row p, and the halved row at (0,q) the
  word times the statistic of row q of y.
-/
import proofs.«151954_j58256936402966_2_alg».proof.Proof.Gen.KernelIdeal.Frame
import proofs.«151954_j58256936402966_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.ArdRbf

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The argument x on core c, -/
abbrev argX (c : Dev nD) : S8192x64.Idx → EReal := m ((c : Thread nD τ).loc main_arg0)
/-- the argument y, -/
abbrev argY (c : Dev nD) : S8192x64.Idx → EReal := m ((c : Thread nD τ).loc main_arg1)
/-- and the log band widths l. -/
abbrev argL (c : Dev nD) : S64.Idx → EReal := m ((c : Thread nD τ).loc main_arg2)

/-- The scaled rows x * e^l, as the reference's stage names them. -/
abbrev scaledRows (c : Dev nD) : S8192x64.Idx → EReal :=
  Cert.ReferenceIdeal.Read.val_main_v3 (F := Ideal) (argX m c) (argL m c)
/-- The row statistics of x. -/
abbrev rowStats (c : Dev nD) : S8192.Idx → EReal :=
  Cert.ReferenceIdeal.Read.val_main_v5 (F := Ideal) (argX m c) (argL m c)
/-- The row statistics of y. -/
abbrev colStats (c : Dev nD) : S8192.Idx → EReal :=
  Cert.ReferenceIdeal.Read.val_main_v10 (F := Ideal) (argY m c) (argL m c)

/-! ## The arrays as the region finds them -/

/-- Window 0's array holds the scaled rows. -/
theorem found_scaled (c : Dev nD) : (V (F := Ideal) m c main_v17 : S8192x64.Idx → EReal) = scaledRows m c := by
  dsimp only [Gen.V, Gen.hostOps0]; after_results; rfl

/-- Window 1's array holds y. -/
theorem found_y (c : Dev nD) : (V (F := Ideal) m c main_v18 : S8192x64.Idx → EReal) = argY m c := by
  dsimp only [Gen.V, Gen.hostOps0]; after_results; rfl

/-- Window 2's array holds the column of x's row statistics, each times the word of -1/2. -/
theorem found_halvedColumn (c : Dev nD) : (V (F := Ideal) m c main_v14 : S8192x1.Idx → EReal)
    = mulf (broadcastInDim S8192x1 ![] bcast_S_S8192x1 (constant (F := Ideal) S_ .f32 0xBF000000#32))
        (broadcastInDim S8192x1 ![0] bcast_S8192_S8192x1_0 (rowStats m c)) := by
  dsimp only [Gen.V, Gen.hostOps0]; after_results; rfl

/-- Window 3's array holds the row of y's row statistics, each times the word of -1/2. -/
theorem found_halvedRow (c : Dev nD) : (V (F := Ideal) m c main_v16 : S1x8192.Idx → EReal)
    = mulf (broadcastInDim S1x8192 ![] bcast_S_S1x8192 (constant (F := Ideal) S_ .f32 0xBF000000#32))
        (shapeCast S1x8192 (colStats m c) shapeCasts_S8192_S1x8192) := by
  dsimp only [Gen.V, Gen.hostOps0]; after_results; rfl

/-! ## Their entries -/

/-- The halved column at (p,0): the word times the statistic of row p. -/
theorem halvedColumn_apply (A : S8192.Idx → EReal) (p : Fin 8192) :
    mulf (broadcastInDim S8192x1 ![] bcast_S_S8192x1 (constant (F := Ideal) S_ .f32 0xBF000000#32))
        (broadcastInDim S8192x1 ![0] bcast_S8192_S8192x1_0 A) (ix2 p (0 : Fin 1))
      = Ideal.ofBits .f32 0xBF000000#32 * A (ix1 p) := by
  rw [mulf_apply,
    broadcastInDim_apply _ bcast_S_S8192x1 (constant (F := Ideal) S_ .f32 0xBF000000#32) (ix2 p (0 : Fin 1)) ix0 (fun a => a.elim0),
    broadcastInDim_apply _ bcast_S8192_S8192x1_0 A (ix2 p (0 : Fin 1)) (ix1 p) (fun a => match a with
      | ⟨0, _⟩ => by show p.val = if (8192 : Nat) = 1 then 0 else p.val; rw [if_neg (by decide)]),
    constant_apply]

/-- The halved row at (0,q): the word times the statistic of row q of y. -/
theorem halvedRow_apply (B : S8192.Idx → EReal) (q : Fin 8192) :
    mulf (broadcastInDim S1x8192 ![] bcast_S_S1x8192 (constant (F := Ideal) S_ .f32 0xBF000000#32))
        (shapeCast S1x8192 B shapeCasts_S8192_S1x8192) (ix2 (0 : Fin 1) q)
      = Ideal.ofBits .f32 0xBF000000#32 * B (ix1 q) := by
  rw [mulf_apply,
    broadcastInDim_apply _ bcast_S_S1x8192 (constant (F := Ideal) S_ .f32 0xBF000000#32) (ix2 (0 : Fin 1) q) ix0 (fun a => a.elim0),
    shapeCast_a_1a_apply, constant_apply]

end Cert.ArdRbf

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.Payload.lean ====
/-
  One tile of the kernel body, read at an entry.

  The body loads a 1024-row tile of the scaled x, a 2048-row tile of y, a column of 1024 halved row statistics and a
  row of 2048 halved column statistics, and stores exp (min ((column + row) + tile product) 0). At entry (r,s) of the
  1024 x 2048 tile: the column broadcast gives its entry r, the row broadcast its entry s, and the matrix product
  into a zero accumulator is the sum over the 64 features k of x-tile (r,k) times y-tile (s,k) (both operands are
  contracted along their second axis: no transpose is formed).
-/
import proofs.«151954_j58256936402966_2_alg».proof.Proof.Gen.KernelIdeal.Skeleton
import proofs.«151954_j58256936402966_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.ArdRbf

open Idealize.ShloMosaic Idealize.ShloMosaic.ValueIdx
open Cert.KernelIdeal Cert.KernelIdeal.Gen

/-- The row coordinate of the left operand's index is the output row -/
theorem tile_lhs_row (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl

/-- and its feature coordinate the contracted one. -/
theorem tile_lhs_feature (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q

/-- The row coordinate of the right operand's index is the output COLUMN -/
theorem tile_rhs_row (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

/-- and its feature coordinate the contracted one. -/
theorem tile_rhs_feature (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The tile product into a zero accumulator, at (r,s): the sum over the features of left (r,k) times right (s,k). -/
theorem tile_product_apply (l : FVec Ideal S1024x64 .bf16) (y : FVec Ideal S2048x64 .bf16) (r : Fin 1024) (s : Fin 2048) :
    matmul (F := Ideal) dot_S1024x64_S2048x64_S1024x2048_1_1_0_0_n_n none l y (constant (F := Ideal) S1024x2048 .f32 0x00000000#32) (ix2 r s)
      = ∑ k : Fin 64, l (ix2 r k) * y (ix2 s k) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 r s) ((ValueIdx.contrEquiv1 dot_S1024x64_S2048x64_S1024x2048_1_1_0_0_n_n 64 rfl rfl).symm k) = ix2 r k :=
    funext fun a => Fin.ext (by
      match a with
      | ⟨0, _⟩ => exact tile_lhs_row _ _
      | ⟨1, _⟩ => exact (tile_lhs_feature _ _).trans hk)
  have er : dot_S1024x64_S2048x64_S1024x2048_1_1_0_0_n_n.rhsIdx (ix2 r s) ((ValueIdx.contrEquiv1 dot_S1024x64_S2048x64_S1024x2048_1_1_0_0_n_n 64 rfl rfl).symm k) = ix2 s k :=
    funext fun a => Fin.ext (by
      match a with
      | ⟨0, _⟩ => exact tile_rhs_row _ _
      | ⟨1, _⟩ => exact (tile_rhs_feature _ _).trans hk)
  rw [el, er]

/-- The body's stored value at entry (r,s) of the tile. -/
theorem tile_apply (x0 : FVec Ideal S1024x64 .bf16) (x1 : FVec Ideal S2048x64 .bf16) (x2 : FVec Ideal S1024x1 .f32) (x3 : FVec Ideal S1x2048 .f32)
    (r : Fin 1024) (s : Fin 2048) :
    k0_pay1 (F := Ideal) x0 x1 x2 x3 (ix2 r s)
      = Ideal.exp (min ((x2 (ix2 r (0 : Fin 1)) + x3 (ix2 (0 : Fin 1) s)) + ∑ k : Fin 64, x0 (ix2 r k) * x1 (ix2 s k))
          (Ideal.ofBits .f32 0x00000000#32)) := by
  unfold k0_pay1
  show Ideal.exp (min
      ((broadcastTo S1024x2048 (shapeCast S1024x1 x2 shapeCasts_S1024x1_S1024x1) broadcasts_S1024x1_S1024x2048 (ix2 r s)
        + broadcastTo S1024x2048 (shapeCast S1x2048 x3 shapeCasts_S1x2048_S1x2048) broadcasts_S1x2048_S1024x2048 (ix2 r s))
        + matmul (F := Ideal) dot_S1024x64_S2048x64_S1024x2048_1_1_0_0_n_n none (shapeCast S1024x64 x0 shapeCasts_S1024x64_S1024x64)
            (shapeCast S2048x64 x1 shapeCasts_S2048x64_S2048x64) (constant (F := Ideal) S1024x2048 .f32 0x00000000#32) (ix2 r s))
      (Ideal.ofBits .f32 0x00000000#32)) = _
  rw [shapeCast_self x2, shapeCast_self x3, shapeCast_self x0, shapeCast_self x1, tile_product_apply,
    Cert.Layout.broadcastTo_a1_ab_apply, broadcastTo_1b_ab_apply]

end Cert.ArdRbf

end
-- ==== Proof.KernelValue.lean ====
/-
  From tiles to the matrix: after the run the kernel's result array is the halved arrangement.

  The grid has 8 x 4 points; point (I, J) is handed rows 1024 I .. 1024 I + 1023 of the scaled x and of the halved
  column, rows 2048 J .. 2048 J + 2047 of y and columns 2048 J .. of the halved row, and writes back the
  1024 x 2048 tile (I, J) of the result. Entry (r, s) of that tile is entry (1024 I + r, 2048 J + s) of the matrix,
  and what the body stores there is the halved arrangement's entry at exactly that place: the tile's rows of the
  scaled x are rows 1024 I + r of the whole, its rows of y are rows 2048 J + s of y, and so on. The 32 tiles cover
  the 8192 x 8192 matrix (entry (i, j) lies in tile (i / 1024, j / 2048)), so the array ends holding the
  arrangement everywhere.
-/
import proofs.«151954_j58256936402966_2_alg».proof.Proof.Gen.KernelIdeal.Value
import proofs.«151954_j58256936402966_2_alg».proof.Proof.HostPrelude
import proofs.«151954_j58256936402966_2_alg».proof.Proof.Payload
import proofs.«151954_j58256936402966_2_alg».proof.Proof.Spec

noncomputable section

namespace Cert.ArdRbf

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The result the kernel's run leaves on core c: the halved arrangement over the shared prelude. -/
abbrev kernelResult (c : Dev nD) : S8192x8192.Idx → EReal :=
  halvedArr (rowStats m c) (colStats m c) (scaledRows m c) (argY m c)

theorem zero_offsets : (![0, 0] : Fin 2 → Nat) = fun _ => 0 := funext fun a => by fin_cases a <;> rfl

/-- How the five windows move over the grid, decided over its 32 points: the scaled x and the halved column follow
    the result's row of tiles, y and the halved row its column of tiles, and none moves along its other axis. -/
theorem window_maps : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every tile of the 8 x 4 tiling is some point's. -/
theorem every_tile : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-! ## The four input tiles, read where the result's tile says -/

/-- The scaled-x tile at (r,k) is the scaled x at row 1024 I + r. -/
theorem read_scaled (c : Dev nD) (t : Fin cfg0.N) (r : Fin 1024) (k : Fin 64) (g : Fin 8192)
    (hg : g.val = win0_4.index t (0 : Fin 2) * 1024 + r.val) :
    iblk m c 0 t (ix2 r k) = scaledRows m c (ix2 g k) := by
  show V m c main_v17 (((cfg0.win 0).blk t).view.emb (ix2 r k)) = _
  refine (congrFun (found_scaled m c) _).trans (congrArg (scaledRows m c) (funext fun a => Fin.ext ?_))
  obtain ⟨e0, e1, -⟩ := window_maps t
  match a with
  | ⟨0, _⟩ => show win0_0.index t (0 : Fin 2) * 1024 + 1 * r.val = g.val; omega
  | ⟨1, _⟩ => show win0_0.index t (1 : Fin 2) * 64 + 1 * k.val = k.val; omega

/-- The y tile at (s,k) is y at row 2048 J + s. -/
theorem read_y (c : Dev nD) (t : Fin cfg0.N) (s : Fin 2048) (k : Fin 64) (h : Fin 8192)
    (hh : h.val = win0_4.index t (1 : Fin 2) * 2048 + s.val) :
    iblk m c 1 t (ix2 s k) = argY m c (ix2 h k) := by
  show V m c main_v18 (((cfg0.win 1).blk t).view.emb (ix2 s k)) = _
  refine (congrFun (found_y m c) _).trans (congrArg (argY m c) (funext fun a => Fin.ext ?_))
  obtain ⟨-, -, e2, e3, -⟩ := window_maps t
  match a with
  | ⟨0, _⟩ => show win0_1.index t (0 : Fin 2) * 2048 + 1 * s.val = h.val; omega
  | ⟨1, _⟩ => show win0_1.index t (1 : Fin 2) * 64 + 1 * k.val = k.val; omega

/-- The halved-column tile at (r,0) is the word of -1/2 times the statistic of row 1024 I + r. -/
theorem read_halvedColumn (c : Dev nD) (t : Fin cfg0.N) (r : Fin 1024) (g : Fin 8192)
    (hg : g.val = win0_4.index t (0 : Fin 2) * 1024 + r.val) :
    iblk m c 2 t (ix2 r (0 : Fin 1)) = Ideal.ofBits .f32 0xBF000000#32 * rowStats m c (ix1 g) := by
  show V m c main_v14 (((cfg0.win 2).blk t).view.emb (ix2 r (0 : Fin 1))) = _
  refine (congrFun (found_halvedColumn m c) _).trans ?_
  refine Eq.trans (congrArg _ (funext fun a => Fin.ext ?_)) (halvedColumn_apply (rowStats m c) g)
  obtain ⟨-, -, -, -, e4, e5, -⟩ := window_maps t
  match a with
  | ⟨0, _⟩ => show win0_2.index t (0 : Fin 2) * 1024 + 1 * r.val = g.val; omega
  | ⟨1, _⟩ => show win0_2.index t (1 : Fin 2) * 1 + 1 * 0 = 0; omega

/-- The halved-row tile at (0,s) is the word of -1/2 times the statistic of row 2048 J + s of y. -/
theorem read_halvedRow (c : Dev nD) (t : Fin cfg0.N) (s : Fin 2048) (h : Fin 8192)
    (hh : h.val = win0_4.index t (1 : Fin 2) * 2048 + s.val) :
    iblk m c 3 t (ix2 (0 : Fin 1) s) = Ideal.ofBits .f32 0xBF000000#32 * colStats m c (ix1 h) := by
  show V m c main_v16 (((cfg0.win 3).blk t).view.emb (ix2 (0 : Fin 1) s)) = _
  refine (congrFun (found_halvedRow m c) _).trans ?_
  refine Eq.trans (congrArg _ (funext fun a => Fin.ext ?_)) (halvedRow_apply (colStats m c) h)
  obtain ⟨-, -, -, -, -, -, e6, e7, -⟩ := window_maps t
  match a with
  | ⟨0, _⟩ => show win0_3.index t (0 : Fin 2) * 1 + 1 * 0 = 0; omega
  | ⟨1, _⟩ => show win0_3.index t (1 : Fin 2) * 2048 + 1 * s.val = h.val; omega

/-! ## What a point writes back -/

/-- Over any four tiles: if the halved-column tile at (r,0), the halved-row tile at (0,s) and rows r and s of the
    two operand tiles are what the matrix's rows g and h give, the stored value at (r,s) is the halved arrangement's
    entry (g,h). -/
theorem stored_of_reads (x0 : FVec Ideal S1024x64 .bf16) (x1 : FVec Ideal S2048x64 .bf16) (x2 : FVec Ideal S1024x1 .f32)
    (x3 : FVec Ideal S1x2048 .f32) (A B : (⟨1, ![8192]⟩ : Shape).Idx → EReal) (W Y : (⟨2, ![8192, 64]⟩ : Shape).Idx → EReal)
    (r : Fin 1024) (s : Fin 2048) (g h : Fin 8192)
    (h2 : x2 (ix2 r (0 : Fin 1)) = Ideal.ofBits .f32 0xBF000000#32 * A (ix1 g))
    (h3 : x3 (ix2 (0 : Fin 1) s) = Ideal.ofBits .f32 0xBF000000#32 * B (ix1 h))
    (h0 : ∀ k : Fin 64, x0 (ix2 r k) = W (ix2 g k)) (h1 : ∀ k : Fin 64, x1 (ix2 s k) = Y (ix2 h k)) :
    k0_pay1 (F := Ideal) x0 x1 x2 x3 (ix2 r s) = halved A B W Y g h := by
  have hs : ∑ k : Fin 64, x0 (ix2 r k) * x1 (ix2 s k) = ∑ k : Fin 64, W (ix2 g k) * Y (ix2 h k) :=
    Finset.sum_congr rfl fun k _ => by rw [h0 k, h1 k]
  rw [tile_apply, h2, h3, hs]
  rfl

/-- The body's stored value at (r,s) of point t's tile is the halved arrangement at (1024 I + r, 2048 J + s). -/
theorem stored_entry (c : Dev nD) (t : Fin cfg0.N) (r : Fin 1024) (s : Fin 2048) (g h : Fin 8192)
    (hg : g.val = win0_4.index t (0 : Fin 2) * 1024 + r.val) (hh : h.val = win0_4.index t (1 : Fin 2) * 2048 + s.val) :
    k0_pay1 (F := Ideal) (iblk m c 0 t) (iblk m c 1 t) (iblk m c 2 t) (iblk m c 3 t) (ix2 r s)
      = halved (rowStats m c) (colStats m c) (scaledRows m c) (argY m c) g h :=
  stored_of_reads (iblk m c 0 t) (iblk m c 1 t) (iblk m c 2 t) (iblk m c 3 t)
    (rowStats m c) (colStats m c) (scaledRows m c) (argY m c) r s g h
    (read_halvedColumn m c t r g hg) (read_halvedRow m c t s h hh)
    (fun k => read_scaled m c t r k g hg) (fun k => read_y m c t s k h hh)

/-- WHAT POINT t WRITES BACK is tile t of the halved arrangement. -/
theorem flushed_is_tile (c : Dev nD) (t : Fin cfg0.N) :
    (dats m 0 c).flushed 4 t = ((cfg0.win 4).blk t).view.read (Elt Ideal) (kernelResult m c) := by
  rw [Cert.KernelIdeal.Value.flushed4]
  unfold out0_4
  rw [View.canon_unit_zero zero_offsets]
  simp only [View.ld_unit_zero (S := S1024x64) zero_offsets, View.ld_unit_zero (S := S2048x64) zero_offsets,
    View.ld_unit_zero (S := S1024x1) zero_offsets, View.ld_unit_zero (S := S1x2048) zero_offsets]
  refine funext fun (j : S1024x2048.Idx) => ?_
  obtain ⟨r, s, rfl⟩ : ∃ (r : Fin 1024) (s : Fin 2048), j = ix2 r s := ⟨j 0, j 1, eq_ix2 j⟩
  show k0_pay1 (F := Ideal) (iblk m c 0 t) (iblk m c 1 t) (iblk m c 2 t) (iblk m c 3 t) (ix2 r s)
    = halved (rowStats m c) (colStats m c) (scaledRows m c) (argY m c)
        ((((cfg0.win 4).blk t).view.emb (ix2 r s)) 0) ((((cfg0.win 4).blk t).view.emb (ix2 r s)) 1)
  refine stored_entry m c t r s _ _ ?_ ?_
  · show win0_4.index t (0 : Fin 2) * 1024 + 1 * r.val = _; omega
  · show win0_4.index t (1 : Fin 2) * 2048 + 1 * s.val = _; omega

/-! ## The tiles cover the matrix -/

/-- An entry is in point t's tile iff each coordinate is in the tile's range on its axis. -/
theorem mem_tile (t : Fin cfg0.N) (i : S8192x8192.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v19).slice (win0_4.rect t)).set ↔ _
  rw [View.set_slice_whole, Rect.mem_set_unit]
  exact Iff.rfl

/-- Entry (i, j) lies in the tile (i / 1024, j / 2048), which some point writes back. -/
theorem tiles_cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := every_tile ⟨(i 0).val / 1024, by omega⟩ ⟨(i 1).val / 2048, by omega⟩
  have q0 : win0_4.index t (0 : Fin 2) = (i 0).val / 1024 := congrFun ht 0
  have q1 : win0_4.index t (1 : Fin 2) = (i 1).val / 2048 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-! ## The array after the run, and the run -/

/-- THE RESULT ARRAY after the run is the halved arrangement. -/
theorem result_array (c : Dev nD) : (dats m 0 c).arrAt 4 cfg0.N = kernelResult m c :=
  (dats m 0 c).arrAt_eq_of_cover 4 (kernelResult m c) (fun t _ => flushed_is_tile m c t) tiles_cover

/-- The kernel's run: it terminates with the result at the halved arrangement and the arguments unchanged. -/
theorem kernel_run : θ_run defs (onTc (τ := τ) (main (F := Ideal))) ⟨m, fun _ => 0, ρ⟩ fun r => ∀ c : Dev nD,
      r.2.mem ((c : Thread nD τ).loc main_v19) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.ArdRbf

end
-- ==== Proof.lean ====
/-
  The ARD radial-basis kernel matrix, K[i,j] = exp (-1/2 * sum over d of e^{l_d} * (x[i,d] - y[j,d])^2), through the
  expansion of the square: with the scaled rows w = x * e^l, the row statistics a_i = sum_d w[i,d] * x[i,d] and
  b_j = sum_d (y[j,d] * e^{l_d}) * y[j,d], and the cross products c_ij = sum_d w[i,d] * y[j,d], the squared distance is
  a_i + b_j - 2 c_ij.

  The reference floors that distance at 0 and then multiplies by -1/2 before the exponential. The kernel folds the
  -1/2 into the two row statistics on the host, adds the cross product (one matrix product per 1024 x 2048 tile,
  over a grid of 8 x 4 tiles) and clamps with a minimum against 0 instead. Both apply the same exponential, and
  their arguments agree on the reals: -1/2 * max (a + b - 2c) 0 = min (-a/2 - b/2 + c) 0. That identity distributes a
  product over a sum, which fails at the infinities of the extended reals, so the proof uses the precondition: all
  inputs finite makes e^l, the row statistics and the cross products real numbers.

  The modules: Spec (the two arrangements and the law), RefSide (the reference is the floored arrangement),
  HostPrelude and Payload and KernelValue (the kernel's result array is the halved arrangement), Finite (what the
  precondition gives). The changes of float format on the way into the matrix product are the identity on the
  extended reals, and no operation was rewritten in idealizing the kernel, so that claim is trivial.
-/
import proofs.«151954_j58256936402966_2_alg».proof.Defs
import proofs.«151954_j58256936402966_2_alg».proof.Proof.Gen.Kernel
import proofs.«151954_j58256936402966_2_alg».proof.Proof.Gen.Kernel.Skeleton
import proofs.«151954_j58256936402966_2_alg».proof.Proof.Gen.Kernel.Launch
import proofs.«151954_j58256936402966_2_alg».proof.Proof.Gen.Kernel.Points
import proofs.«151954_j58256936402966_2_alg».proof.Proof.Gen.Kernel.Frame
import proofs.«151954_j58256936402966_2_alg».proof.Proof.Gen.KernelIdeal
import proofs.«151954_j58256936402966_2_alg».proof.Proof.Gen.KernelIdeal.Skeleton
import proofs.«151954_j58256936402966_2_alg».proof.Proof.Gen.KernelIdeal.Launch
import proofs.«151954_j58256936402966_2_alg».proof.Proof.Gen.KernelIdeal.Points
import proofs.«151954_j58256936402966_2_alg».proof.Proof.Gen.KernelIdeal.Frame
import proofs.«151954_j58256936402966_2_alg».proof.Proof.Gen.ReferenceIdeal
import proofs.«151954_j58256936402966_2_alg».proof.Proof.Gen.Pre_finite_inputs
import proofs.«151954_j58256936402966_2_alg».proof.Proof.Gen.KernelIdeal.Value
import proofs.«151954_j58256936402966_2_alg».proof.Proof.Gen.ReferenceIdeal.Run
import proofs.«151954_j58256936402966_2_alg».proof.Proof.Gen.ReferenceIdeal.Read
import Idealize.ShloMosaic.Adequacy
import Idealize.ShloMosaic.Init
import proofs.«151954_j58256936402966_2_alg».proof.Proof.Spec
import proofs.«151954_j58256936402966_2_alg».proof.Proof.RefSide
import proofs.«151954_j58256936402966_2_alg».proof.Proof.Finite
import proofs.«151954_j58256936402966_2_alg».proof.Proof.KernelValue

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in reading the kernel on the extended reals. -/
theorem preserves : Cert.preserves_Kernel_KernelIdeal := trivial

/-- From memories agreeing on x, y and l, all finite: the kernel ends at the halved arrangement over the shared
    prelude, the reference at the floored one, and the two are one matrix because every row statistic and every
    cross product is real. -/
theorem algebraic : Cert.algebraic_KernelIdeal_ReferenceIdeal := by
  intro m ρ m' ρ' hpre hagree
  refine ⟨fun c => Cert.ArdRbf.kernelResult m c, Cert.ArdRbf.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ArdRbf.reference_is_floored, (hagree c).1, (hagree c).2.1, (hagree c).2.2]
  obtain ⟨h0, h1, h2⟩ := Cert.ArdRbf.entries_real _ _ _ (hpre c)
  exact (Cert.ArdRbf.halvedArr_eq_flooredArr _ _ _ _ (Cert.ArdRbf.rowStat_real _ _ h0 h2)
    (Cert.ArdRbf.colStat_real _ _ h1 h2) (Cert.ArdRbf.cross_real _ _ _ h0 h1 h2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
